-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2 : Shape := ⟨3, ![16, 2048, 2]⟩
abbrev S_ : Shape := ⟨0, ![]⟩

class Facts : Prop where
  bcast_S_S16x2048x2 : S_.BroadcastsInDim S16x2048x2 (![] : Fin 0 → Fin S16x2048x2.rank)
  reducesTo_S16x2048x2_S_d0_1_2 : S16x2048x2.ReducesTo [0, 1, 2] S_
  h_S_ : 0 < S_.numel

variable [Facts]

def fn {F : FTy → Type} [FloatOps F] (main_arg0 : FVec F S16x2048x2 .f32) (main_arg1 : FVec F S16x2048x2 .f32) : IVec S_ 1 :=
  let main_v0 : FVec F S16x2048x2 .f32 := Host.absf main_arg0
  let main_cst : FVec F S_ .f32 := constant S_ .f32 0x7F800000#32
  let main_v1 : FVec F S16x2048x2 .f32 := broadcastInDim S16x2048x2 ![] bcast_S_S16x2048x2 main_cst
  let main_v2 : IVec S16x2048x2 1 := cmpf .olt main_v0 main_v1
  let main_c : IVec S_ 1 := constantI S_ 1 1#1
  let main_v3 : IVec S_ 1 := (fun x v => Host.reduce IntOp.andi x v reducesTo_S16x2048x2_S_d0_1_2 h_S_) main_v2 main_c
  let main_v4 : FVec F S16x2048x2 .f32 := Host.absf main_arg1
  let main_cst_0 : FVec F S_ .f32 := constant S_ .f32 0x7F800000#32
  let main_v5 : FVec F S16x2048x2 .f32 := broadcastInDim S16x2048x2 ![] bcast_S_S16x2048x2 main_cst_0
  let main_v6 : IVec S16x2048x2 1 := cmpf .olt main_v4 main_v5
  let main_c_1 : IVec S_ 1 := constantI S_ 1 1#1
  let main_v7 : IVec S_ 1 := (fun x v => Host.reduce IntOp.andi x v reducesTo_S16x2048x2_S_d0_1_2 h_S_) main_v6 main_c_1
  let main_v8 : IVec S_ 1 := andi main_v3 main_v7
  main_v8
-- ==== Kernel.lean ====
abbrev S16x2048x2 : Shape := ⟨3, ![16, 2048, 2]⟩
abbrev S16x1x2048 : Shape := ⟨3, ![16, 1, 2048]⟩
abbrev S1x512x2 : Shape := ⟨3, ![1, 512, 2]⟩
abbrev S1x2048x2 : Shape := ⟨3, ![1, 2048, 2]⟩
abbrev S1x1x512 : Shape := ⟨3, ![1, 1, 512]⟩
abbrev S512x2 : Shape := ⟨2, ![512, 2]⟩
abbrev S2x512 : Shape := ⟨2, ![2, 512]⟩
abbrev S1x512 : Shape := ⟨2, ![1, 512]⟩
abbrev S1x2048x1 : Shape := ⟨3, ![1, 2048, 1]⟩
abbrev S2048x1 : Shape := ⟨2, ![2048, 1]⟩
abbrev S2048x512 : Shape := ⟨2, ![2048, 512]⟩
abbrev S512 : Shape := ⟨1, ![512]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S16x2048x2, .f32⟩
  | .hbm, ⟨1, _⟩ => ⟨S16x2048x2, .f32⟩
  | .hbm, ⟨2, _⟩ => ⟨S16x1x2048, .f32⟩
  | .hbm, ⟨3, _⟩ => ⟨S16x1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x512x2, .f32⟩
  | .local _ .vmem, ⟨1, _⟩ => ⟨S1x512x2, .f32⟩
  | .local _ .vmem, ⟨2, _⟩ => ⟨S1x2048x2, .f32⟩
  | .local _ .vmem, ⟨3, _⟩ => ⟨S1x2048x2, .f32⟩
  | .local _ .vmem, ⟨4, _⟩ => ⟨S1x1x512, .f32⟩
  | .local _ .vmem, ⟨5, _⟩ => ⟨S1x1x512, .f32⟩
  | .local _ .vmem, ⟨6, _⟩ => ⟨S1x512x2, .f32⟩
  | .local _ .vmem, ⟨7, _⟩ => ⟨S1x512x2, .f32⟩
  | .local _ .vmem, ⟨8, _⟩ => ⟨S1x2048x2, .f32⟩
  | .local _ .vmem, ⟨9, _⟩ => ⟨S1x2048x2, .f32⟩
  | .local _ .vmem, ⟨10, _⟩ => ⟨S1x1x512, .f32⟩
  | .local _ .vmem, ⟨11, _⟩ => ⟨S1x1x512, .f32⟩
  | _, _ => ⟨S16x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  transposes_S512x2_p1_0_S2x512 : S512x2.Transposes [1, 0] S2x512
  slices_S2x512_o0_0_S1x512 : S2x512.Slices ![0, 0] S1x512
  slices_S2x512_o1_0_S1x512 : S2x512.Slices ![1, 0] S1x512
  inb_S1x2048x2_S1x2048x1_0_0_0 : ∀ a, (![0, 0, 0] : Fin 3 → Nat) a + S1x2048x1.size a ≤ S1x2048x2.size a
  h_S1x2048x1 : 0 < S1x2048x1.numel
  shapeCasts_S1x2048x1_S2048x1 : S1x2048x1.ShapeCasts S2048x1
  inb_S1x2048x2_S1x2048x1_0_0_1 : ∀ a, (![0, 0, 1] : Fin 3 → Nat) a + S1x2048x1.size a ≤ S1x2048x2.size a
  broadcasts_S2048x1_S2048x512 : S2048x1.Broadcasts S2048x512
  broadcasts_S1x512_S2048x512 : S1x512.Broadcasts S2048x512
  reduces_S2048x512_S512 : S2048x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  reducesTo_S16x1x2048_S_d0_1_2 : S16x1x2048.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S16x2048x2.size a
  hwx0_0 : ∀ i : grid0.Coords, EltTy.bits .f32 = 32 ∨ (Rect.block (s := S16x2048x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2.size a ≤ S16x2048x2.size a
  hwx0_1 : ∀ i : grid0.Coords, EltTy.bits .f32 = 32 ∨ (Rect.block (s := S16x2048x2) S1x2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x2048.size a
  hwx0_2 : ∀ i : grid0.Coords, EltTy.bits .f32 = 32 ∨ (Rect.block (s := S16x1x2048) S1x1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2.size a ≤ S16x2048x2.size a
  hwx1_0 : ∀ i : grid1.Coords, EltTy.bits .f32 = 32 ∨ (Rect.block (s := S16x2048x2) S1x512x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x2.size a ≤ S16x2048x2.size a
  hwx1_1 : ∀ i : grid1.Coords, EltTy.bits .f32 = 32 ∨ (Rect.block (s := S16x2048x2) S1x2048x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S16x1x2048.size a
  hwx1_2 : ∀ i : grid1.Coords, EltTy.bits .f32 = 32 ∨ (Rect.block (s := S16x1x2048) S1x1x512.size (cc1_transform_2 i) (hinb1_2 i)).WholeWords (EltTy.packing .f32)

variable [Facts₀]

abbrev win0_0 : Pipeline.Window sig grid0 :=
  Pipeline.Window.ofSpec (Memref.whole main_arg0) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x512x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x2048x2 : Shape := ⟨3, ![16, 2048, 2]⟩
abbrev S16x2048x1x2 : Shape := ⟨4, ![16, 2048, 1, 2]⟩
abbrev S16x1x2048x2 : Shape := ⟨4, ![16, 1, 2048, 2]⟩
abbrev S16x2048x2048x2 : Shape := ⟨4, ![16, 2048, 2048, 2]⟩
abbrev S_ : Shape := ⟨0, ![]⟩
abbrev S16x2048x2048 : Shape := ⟨3, ![16, 2048, 2048]⟩
abbrev S16x2048 : Shape := ⟨2, ![16, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x2, .f32⟩
  | .hbm, ⟨1, _⟩ => ⟨S16x2048x2, .f32⟩
  | .hbm, ⟨2, _⟩ => ⟨S16x2048x1x2, .f32⟩
  | .hbm, ⟨3, _⟩ => ⟨S16x1x2048x2, .f32⟩
  | .hbm, ⟨4, _⟩ => ⟨S16x2048x2048x2, .f32⟩
  | .hbm, ⟨5, _⟩ => ⟨S16x2048x2048x2, .f32⟩
  | .hbm, ⟨6, _⟩ => ⟨S16x2048x2048x2, .f32⟩
  | .hbm, ⟨7, _⟩ => ⟨S16x2048x2048x2, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S16x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S16x2048x2_S16x2048x1x2_0_1_3 : S16x2048x2.BroadcastsInDim S16x2048x1x2 (![0, 1, 3] : Fin 3 → Fin S16x2048x1x2.rank)
  bcast_S16x2048x2_S16x1x2048x2_0_2_3 : S16x2048x2.BroadcastsInDim S16x1x2048x2 (![0, 2, 3] : Fin 3 → Fin S16x1x2048x2.rank)
  bcast_S16x2048x1x2_S16x2048x2048x2_0_1_2_3 : S16x2048x1x2.BroadcastsInDim S16x2048x2048x2 (![0, 1, 2, 3] : Fin 4 → Fin S16x2048x2048x2.rank)
  bcast_S16x1x2048x2_S16x2048x2048x2_0_1_2_3 : S16x1x2048x2.BroadcastsInDim S16x2048x2048x2 (![0, 1, 2, 3] : Fin 4 → Fin S16x2048x2048x2.rank)
  reducesTo_S16x2048x2048x2_S16x2048x2048_d3 : S16x2048x2048x2.ReducesTo [3] S16x2048x2048
  h_S_ : 0 < S_.numel
  reducesTo_S16x2048x2048_S16x2048_d2 : S16x2048x2048.ReducesTo [2] S16x2048
  reducesTo_S16x2048_S_d0_1 : S16x2048.ReducesTo [0, 1] S_
  reducesTo_S16x2048x2048_S16x2048_d1 : S16x2048x2048.ReducesTo [1] S16x2048

variable [Facts₀]

class Facts : Prop extends Facts₀ where

variable [Facts]
-- ==== Proof.KernelRun.lean ====
/-
  The buffers at the boundaries of the program's run. The program is two kernel regions followed by nine host
  operations. After both regions the first region's output array holds what its own write-backs leave (the second
  region does not touch it) and the second region's output array what its write-backs leave; the second region
  still finds both argument arrays as launched, since the first only reads them. The host operations then take
  two means — each output array summed from zero and divided by 32768 — and add them into the result buffer.
-/
import proofs.«100557_j75290776699474_2_alg».proof.Proof.Gen.KernelIdeal.Frame
import Idealize.ShloMosaic.Lib.StableHlo.Run

set_option maxRecDepth 16384

noncomputable section

namespace Cert.KernelIdeal.RunValue

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ) (ρ : Dev nD → PrngReg)

/-! ## The buffers after the second region -/

/-- The first region's output array after both regions: what the first region's write-backs leave. -/
theorem after_regions_first_out (c : Dev nD) :
    W2 m ρ c (Proc.devRef .tc main_v0) = (dat0 (V0 m ρ) c).arrAt 2 cfg0.N :=
  (W2_of_ne m ρ c main_v0 (fun w => by fin_cases w <;> decide)).trans (W1_arr m ρ c 2)

/-- The second region's output array after both regions: what its write-backs leave. -/
theorem after_regions_second_out (c : Dev nD) :
    W2 m ρ c (Proc.devRef .tc main_v1) = (dat1 (V1 m ρ) c).arrAt 2 cfg1.N :=
  W2_arr m ρ c 2

/-- The second region finds the first argument as launched: the first region only reads it. -/
theorem second_region_arg0 (c : Dev nD) : V1 m ρ c main_arg0 = m ((c : Thread nD τ).loc main_arg0) :=
  (W1_arr m ρ c 0).trans (((dat0 (V0 m ρ) c).arrAt_in 0 rfl _).trans (A_eq0 (V0 m ρ) c 0))

/-- The second region finds the second argument as launched. -/
theorem second_region_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-! ## The host operations after the regions -/

/-- The result buffer after the host operations: the mean of the first output array plus the mean of the second. -/
theorem result_after_host (c : Dev nD) :
    W3 m ρ c (Proc.devRef .tc main_v6)
      = addf
          (Host.divf (Host.reduceAdd (W2 m ρ c (Proc.devRef .tc main_v0)) (constant (F := F) S_ .f32 0x00000000#32) reducesTo_S16x1x2048_S_d0_1_2 h_S_)
            (constant (F := F) S_ .f32 0x47000000#32))
          (Host.divf (Host.reduceAdd (W2 m ρ c (Proc.devRef .tc main_v1)) (constant (F := F) S_ .f32 0x00000000#32) reducesTo_S16x1x2048_S_d0_1_2 h_S_)
            (constant (F := F) S_ .f32 0x47000000#32)) := by
  show StableHlo.after hostOps2 (W2 m ρ c) (Proc.devRef .tc main_v6) = _
  after_results

end Cert.KernelIdeal.RunValue

end
-- ==== Proof.LibMinReduce.lean ====
/-
  Minima over one axis of an array of extended reals, read at an index. Reducing axis 0 of an R×C array with
  the minimum leaves one value per column q: the fold of min, from the starting value, over the entries (r, q).
  Reducing the last axis of an A×B×C array leaves one value per (p, q): the fold of min over the entries
  (p, q, k). Nothing here mentions a program.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduce

open Idealize.ShloMosaic Idealize.ShloMosaic.ValueIdx

/-- The column index q with the row coordinate r inserted on axis 0 is (r, q). -/
theorem lift_axis0 {R C : Nat} (h : Shape.Reduces ⟨2, ![R, C]⟩ [(0 : Fin 2)] ⟨1, ![C]⟩) (q : Fin C) (r : Fin R) :
    h.lift (ix1 q) r = ix2 r q := by
  funext ax; apply Fin.ext
  match ax with
  | ⟨0, _⟩ => rfl
  | ⟨1, _⟩ => rfl

/-- The minimum over axis 0 of an R×C vector, read at column q: the fold of min over the column's entries
    from the accumulator's value. -/
theorem multiReduction_min_axis0_apply {R C : Nat} (src : FVec Ideal ⟨2, ![R, C]⟩ .f32) (acc : BitVec 32)
    (h : Shape.Reduces ⟨2, ![R, C]⟩ [(0 : Fin 2)] ⟨1, ![C]⟩) (hφ : FKind.Formats .f32)
    (hacc : acc = FKind.minimumf.neutral .f32 hφ) (q : Fin C) :
    multiReduction .minimumf [(0 : Fin 2)] ⟨1, ![C]⟩ src acc h hφ hacc (ix1 q)
      = (Finset.univ : Finset (Fin R)).fold min (Ideal.ofBits .f32 acc) (fun r => src (ix2 r q)) := by
  rw [multiReduction_minimumf_eq_fold]
  refine (h.fold_filter_drop_single FloatOps.minimumf _ src (ix1 q)).trans ?_
  have hf : (src ∘ h.lift (ix1 q)) = fun r : Fin R => src (ix2 r q) :=
    funext fun r => congrArg src (lift_axis0 h q r)
  exact congrArg (fun f => Finset.fold min (Ideal.ofBits .f32 acc) f (Finset.univ : Finset (Fin R))) hf

/-- The index (p, q) with the coordinate k inserted on the last axis is (p, q, k). -/
theorem lift_axis2 {A B C : Nat} (h : Shape.Reduces ⟨3, ![A, B, C]⟩ [(2 : Fin 3)] ⟨2, ![A, B]⟩) (p : Fin A) (q : Fin B)
    (k : Fin C) : h.lift (ix2 p q) k = ix3 p q k := by
  funext ax; apply Fin.ext
  match ax with
  | ⟨0, _⟩ => rfl
  | ⟨1, _⟩ => rfl
  | ⟨2, _⟩ => rfl

/-- The host's reduce with a minimum body over the last axis of an A×B×C array, at (p, q): the fold of min
    over the entries (p, q, k) from the initial value. -/
theorem hostReduce_min_axis2_apply {A B C : Nat} {u : Shape} (x : FVec Ideal ⟨3, ![A, B, C]⟩ .f32)
    (init : u.Idx → Ideal .f32) (h' : Shape.ReducesTo ⟨3, ![A, B, C]⟩ [(2 : Fin 3)] ⟨2, ![A, B]⟩) (hu : 0 < u.numel)
    (p : Fin A) (q : Fin B) :
    Host.reduce FloatOps.minimumf x init h' hu (ix2 p q)
      = (Finset.univ : Finset (Fin C)).fold min (init (Shape.Idx.first hu)) (fun k => x (ix3 p q k)) := by
  have h : Shape.Reduces ⟨3, ![A, B, C]⟩ [(2 : Fin 3)] ⟨2, ![A, B]⟩ := ⟨h'.1, Nat.two_pos, h'.2⟩
  rw [Host.reduce_eq_fold_single FloatOps.minimumf x init h' h hu]
  have hf : (x ∘ h.lift (ix2 p q)) = fun k : Fin C => x (ix3 p q k) :=
    funext fun k => congrArg x (lift_axis2 h p q k)
  exact congrArg (fun f => Finset.fold min (init (Shape.Idx.first hu)) f (Finset.univ : Finset (Fin C))) hf

end Cert.LibMinReduce

end
-- ==== Proof.LibRows.lean ====
/-
  Row-wise readings of rank-2 arrays at the exact (extended-real) values, over literal rank-2 shapes
  `[a, b]` and indices built from their two coordinates.

  * layout: a column `[a, 1]` broadcast along the rows to `[a, b]` reads, at (p, c), the column's entry
    (p, 0); a vector `[a]` cast to a column `[a, 1]` reads, at (p, 0), the vector's entry p; a vector
    `[b]` broadcast to its one row `[1, b]` reads its entry c at (0, c); a row or column broadcast through
    `broadcast_in_dim` along the identity axes reads likewise.
  * reductions over the second axis: the lane sum of row p is `∑ k, x (p, k)`; the lane maximum of row p
    is the fold of `max` over `k ↦ x (p, k)` from the accumulator's value; the host's reduce with an add
    or a maximum body over the second axis reads the same sum (plus the initial value) and the same fold.
  * `max` against the bottom element `-∞` is the identity, and the f32 word `0xFF800000` denotes it.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx
open scoped BigOperators

variable {α : Type}

/-! ## Layout -/

/-- A column `[a, 1]` broadcast to `[a, b]` reads, at (p, c), the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A vector `[a]` put on the rows of a column `[a, 1]` by `broadcast_in_dim` (axis 0 to axis 0) reads, at
    (p, u), the vector's entry p. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A vector `[b]` put on the columns of a row `[1, b]` by `broadcast_in_dim` (axis 0 to axis 1) reads, at
    (u, c), the vector's entry c. -/
theorem broadcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α)
    (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A column `[a, 1]` spread over `[a, b]` by `broadcast_in_dim` along the identity axes reads, at (p, c), the
    column's entry (p, 0). -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α)
    (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A row `[1, b]` spread over `[a, b]` by `broadcast_in_dim` along the identity axes reads, at (p, c), the
    row's entry (0, c). -/
theorem broadcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α)
    (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-! ## Reductions over the second axis -/

/-- Row p's reduced index with the lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of row p is the sum of the row's entries. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The lane maximum of row p is the fold of `max` over the row's entries from the accumulator's value. -/
theorem multiReduction_max_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with an add body over the second axis, at row p: the initial value plus the sum of the
    row's entries. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ k : Fin b, x (ix2 p k) := by
  rw [Ideal.hostReduceAdd_single h' h]
  exact congrArg (init + ·) (Finset.sum_congr rfl fun k _ => congrArg x (lift_row h p k))

/-- The host's reduce with a maximum body over the second axis, at row p: the fold of `max` over the row's
    entries from the initial value. -/
theorem hostReduce_max_row {a b : ℕ} {u : Shape} (x : FVec Ideal ⟨2, ![a, b]⟩ .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

/-! ## The bottom element -/

/-- The f32 word of `-∞` denotes the bottom extended real. -/
theorem ofBits_neg_inf : Ideal.ofBits .f32 0xFF800000#32 = (⊥ : EReal) := by
  simp [Ideal.ofBits, Ideal.ieee]

/-- `max` against the bottom element is the identity. -/
theorem max_bot_left (y : EReal) : max (⊥ : EReal) y = y := max_eq_right bot_le

end Cert.LibRows

end
-- ==== Proof.Payload.lean ====
/-
  The kernel body's arithmetic, read at one output entry.

  The body holds a block of 512 query points, stored as rows (x, y) of an array [1, 512, 2], and 2048 key
  points given by their x column and their y column, each an array [1, 2048, 1]. It transposes the query
  block to [2, 512] and cuts it into its x row and its y row, spreads the key columns along the rows and the
  query rows along the columns of a 2048 × 512 table, and fills entry (n, j) with the squared distance
  (kx n − qx j)² + (ky n − qy j)² between key n and query j. The minimum of column j over all keys, taken from
  +∞, followed by a square root, is entry (0, 0, j) of the result: the distance from query j to its nearest key.

  Each layout step moves an entry without changing it, so reading the result at (0, 0, j) is a walk back
  through the steps: the two casts that add unit axes, the column minimum as a fold of min over the keys, and
  inside the fold the four broadcast reads that land on one entry of a key column or of the query block.
-/
import proofs.«100557_j75290776699474_2_alg».proof.Proof.Gen.KernelIdeal.Skeleton
import proofs.«100557_j75290776699474_2_alg».proof.Proof.LibMinReduce
import proofs.«100557_j75290776699474_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal

/-- A key column [1, 2048, 1], with its leading unit axis dropped and then spread along the rows of the
    2048 × 512 table, reads at (n, j) the column's entry n: the table's row n is constant. -/
theorem key_col_apply (v : Vec Ideal S1x2048x1 .f32) (n : Fin 2048) (j : Fin 512) :
    broadcastTo S2048x512 (shapeCast S2048x1 v Gen.shapeCasts_S1x2048x1_S2048x1) Gen.broadcasts_S2048x1_S2048x512 (ix2 n j)
      = v (ix3 (0 : Fin 1) n (0 : Fin 1)) :=
  (Cert.LibRows.broadcastTo_a1_ab_apply _ Gen.broadcasts_S2048x1_S2048x512 n j).trans
    (shapeCast_1ab_ab_apply v Gen.shapeCasts_S1x2048x1_S2048x1 n (0 : Fin 1))

/-- Row c of the transposed query block (c = 0 the x row, c = 1 the y row), cut out at row offset o = c and
    spread along the columns of the 2048 × 512 table, reads at (n, j) coordinate c of query point j: the
    slice's one row is row o of the transpose, which is column o of the block [512, 2], which is the
    original array at (0, j, o). -/
theorem query_row_apply (v0 : Vec Ideal S1x512x2 .f32) (o : Nat) (c : Fin 2) (hc : c.val = o)
    (h : S2x512.Slices ![o, 0] S1x512) (n : Fin 2048) (j : Fin 512) :
    broadcastTo S2048x512
        (extractStridedSlice S1x512 ![o, 0]
          (transpose S2x512 [1, 0] (shapeCast S512x2 v0 Gen.shapeCasts_S1x512x2_S512x2) Gen.transposes_S512x2_p1_0_S2x512) h)
        Gen.broadcasts_S1x512_S2048x512 (ix2 n j)
      = v0 (ix3 (0 : Fin 1) j c) :=
  (broadcastTo_1b_ab_apply _ Gen.broadcasts_S1x512_S2048x512 n j).trans
    ((slice2_axis0_apply o _ h (0 : Fin 1) j c (by rw [hc]; rfl)).trans
      ((transpose_ix2_apply _ Gen.transposes_S512x2_p1_0_S2x512 c j).trans
        (shapeCast_1ab_ab_apply v0 Gen.shapeCasts_S1x512x2_S512x2 j c)))

/-- A square root of a vector reads, at an index, the square root of the entry. -/
theorem sqrt_apply {s : Shape} (v : FVec Ideal s .f32) (i : s.Idx) : sqrt v i = Ideal.sqrt (v i) := rfl

/-- The table's entry from its four spread operands: the difference of the first pair squared plus the
    difference of the second pair squared, all entry by entry. -/
theorem sqdist_apply {s : Shape} (a b c d : FVec Ideal s .f32) (i : s.Idx) :
    addf (mulf (subf a b) (subf a b)) (mulf (subf c d) (subf c d)) i
      = (a i - b i) * (a i - b i) + (c i - d i) * (c i - d i) := rfl

/-- From the 2048 × 512 table t to the result: the column minimum from +∞, cast to one row [1, 512], the
    square root, cast to [1, 1, 512]. At (0, 0, j) this is the square root of the fold of min over column j. -/
theorem tail_apply (t : FVec Ideal S2048x512 .f32) (j : Fin 512) :
    shapeCast S1x1x512
        (sqrt (shapeCast S1x512
          (multiReduction (F := Ideal) .minimumf [0] S512 t 0x7F800000#32 Gen.reduces_S2048x512_S512 (.inl rfl) rfl)
          Gen.shapeCasts_S512_S1x512))
        Gen.shapeCasts_S1x512_S1x1x512 (ix3 (0 : Fin 1) (0 : Fin 1) j)
      = Ideal.sqrt ((Finset.univ : Finset (Fin 2048)).fold min (Ideal.ofBits .f32 0x7F800000#32) (fun n => t (ix2 n j))) :=
  (shapeCast_ab_1ab_apply _ Gen.shapeCasts_S1x512_S1x1x512 (0 : Fin 1) (0 : Fin 1) j).trans
    ((sqrt_apply _ _).trans
      (congrArg Ideal.sqrt
        ((shapeCast_a_1a_apply _ Gen.shapeCasts_S512_S1x512 (0 : Fin 1) j).trans
          (Cert.LibMinReduce.multiReduction_min_axis0_apply t 0x7F800000#32 Gen.reduces_S2048x512_S512 (.inl rfl) rfl j))))

/-- The result at (0, 0, j): the square root of the least squared distance from query point j to a key
    point, the minimum running over all 2048 keys from +∞. -/
theorem pay_apply (v0 : Vec Ideal S1x512x2 .f32) (v5 v7 : Vec Ideal S1x2048x1 .f32) (j : Fin 512) :
    Cert.KernelIdeal.Gen.k0_pay1 (F := Ideal) v0 v5 v7 (ix3 (0 : Fin 1) (0 : Fin 1) j)
      = Ideal.sqrt ((Finset.univ : Finset (Fin 2048)).fold min (Ideal.ofBits .f32 0x7F800000#32) (fun n =>
          (v5 (ix3 (0 : Fin 1) n (0 : Fin 1)) - v0 (ix3 (0 : Fin 1) j (0 : Fin 2))) * (v5 (ix3 (0 : Fin 1) n (0 : Fin 1)) - v0 (ix3 (0 : Fin 1) j (0 : Fin 2)))
            + (v7 (ix3 (0 : Fin 1) n (0 : Fin 1)) - v0 (ix3 (0 : Fin 1) j (1 : Fin 2))) * (v7 (ix3 (0 : Fin 1) n (0 : Fin 1)) - v0 (ix3 (0 : Fin 1) j (1 : Fin 2))))) := by
  unfold Gen.k0_pay1
  -- everything after the table: the result is the square root of the column minimum of the table
  refine (tail_apply _ j).trans ?_
  refine congrArg (fun f => Ideal.sqrt (Finset.fold min (Ideal.ofBits .f32 0x7F800000#32) f (Finset.univ : Finset (Fin 2048))))
    (funext fun n => ?_)
  -- entry (n, j) of the table: the two differences, each squared, added
  refine (sqdist_apply _ _ _ _ _).trans ?_
  have hx := congrArg₂ (fun a b : EReal => a - b) (key_col_apply v5 n j)
    (query_row_apply v0 0 (0 : Fin 2) rfl Gen.slices_S2x512_o0_0_S1x512 n j)
  have hy := congrArg₂ (fun a b : EReal => a - b) (key_col_apply v7 n j)
    (query_row_apply v0 1 (1 : Fin 2) rfl Gen.slices_S2x512_o1_0_S1x512 n j)
  exact congrArg₂ (fun a b : EReal => a + b) (congrArg₂ (fun a b : EReal => a * b) hx hx)
    (congrArg₂ (fun a b : EReal => a * b) hy hy)

/-- The second kernel function's body is the same chain of operations: its result is the first one's. -/
theorem pay1_eq (v0 : Vec Ideal S1x512x2 .f32) (v5 v7 : Vec Ideal S1x2048x1 .f32) :
    Cert.KernelIdeal.Gen.k1_pay1 (F := Ideal) v0 v5 v7 = Cert.KernelIdeal.Gen.k0_pay1 (F := Ideal) v0 v5 v7 := rfl

end Cert.KernelIdeal.Payload

end
-- ==== Proof.Spec.lean ====
/-
  The two-sided nearest-neighbour distance of two batches of planar point sets, on the extended reals.

  A batch holds 16 sets of 2048 points (x, y). For a query set q and a key set k of the same batch, the squared
  distance from query point i to key point n is (k_x − q_x)² + (k_y − q_y)², the nearest-key distance of query
  point i is the square root of the minimum of these over n, and the loss is the mean over all query points of
  the batch, taken once with the first set as the query and once with the second, and added.

  The laws that let the square root and the minimum change places, and the difference change sign inside the
  square, hold on ALL extended reals, so nothing here asks for finite entries:
  * the square root (⊥ below zero, ⊤ at ⊤) is monotone, so it commutes with a minimum over any finite family;
  * (a − b)·(a − b) = (b − a)·(b − a): away from a = b = ±∞ the two differences are opposite, and there they are
    the same term;
  * a sum over the indices (b, 0, i) of a [16, 1, 2048] array is the sum over the indices (b, i) of [16, 2048].
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx
open scoped BigOperators

/-- A batch of 16 sets of 2048 points of the plane. -/
abbrev Pts : Type := (⟨3, ![16, 2048, 2]⟩ : Shape).Idx → EReal
/-- One number per point of every set, kept in the layout [16, 1, 2048]. -/
abbrev Rows : Type := (⟨3, ![16, 1, 2048]⟩ : Shape).Idx → EReal
/-- One number per point of every set, in the layout [16, 2048]. -/
abbrev Flat : Type := (⟨2, ![16, 2048]⟩ : Shape).Idx → EReal

/-- The squared distance from query point `i` to key point `n` of set `b`: key minus query, squared, summed
    over the two coordinates. -/
def sqDist (q k : Pts) (b : Fin 16) (i n : Fin 2048) : EReal :=
  (k (ix3 b n (0 : Fin 2)) - q (ix3 b i (0 : Fin 2))) * (k (ix3 b n (0 : Fin 2)) - q (ix3 b i (0 : Fin 2)))
    + (k (ix3 b n (1 : Fin 2)) - q (ix3 b i (1 : Fin 2))) * (k (ix3 b n (1 : Fin 2)) - q (ix3 b i (1 : Fin 2)))

/-- The distance from query point `i` of set `b` to its nearest key point: the root of the least squared
    distance, the minimum started from the f32 word of +∞. -/
def nearestAt (q k : Pts) (b : Fin 16) (i : Fin 2048) : EReal :=
  Ideal.sqrt ((Finset.univ : Finset (Fin 2048)).fold min (Ideal.ofBits .f32 0x7F800000#32) (fun n => sqDist q k b i n))

/-- The nearest-key distances of every query point, as a [16, 1, 2048] array. -/
def nearest (q k : Pts) : Rows := fun j => nearestAt q k ⟨(j 0).val, (j 0).isLt⟩ ⟨(j 2).val, (j 2).isLt⟩

theorem nearest_ix3 (q k : Pts) (b : Fin 16) (u : Fin 1) (i : Fin 2048) :
    nearest q k (ix3 b u i) = nearestAt q k b i := rfl

/-- The mean of the 32768 entries: their sum, started from the f32 zero word, divided by the f32 word of 32768. -/
def meanOf (v : Rows) : EReal :=
  Ideal.div (Ideal.ofBits .f32 0x00000000#32 + ∑ j, v j) (Ideal.ofBits .f32 0x47000000#32)

/-- The loss: the mean nearest distance from the first set to the second plus that from the second to the first. -/
def loss (t a : Pts) : EReal := meanOf (nearest t a) + meanOf (nearest a t)

/-! ## The square root and the minimum -/

/-- The square root is monotone on the extended reals: ⊥ and the negative reals go to ⊥, the nonnegative reals
    to their roots, ⊤ to ⊤. -/
theorem sqrt_mono : Monotone Ideal.sqrt := by
  intro a b hab
  induction a using EReal.rec with
  | bot => exact bot_le
  | top =>
    have hb : b = ⊤ := top_le_iff.mp hab
    rw [hb]
  | coe r =>
    induction b using EReal.rec with
    | bot => exact absurd (le_bot_iff.mp hab) (EReal.coe_ne_bot r)
    | top => exact le_top
    | coe s =>
      have hrs : r ≤ s := EReal.coe_le_coe_iff.mp hab
      simp only [Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- So the root of a minimum over a finite family is the minimum of the roots, from the root of the start. -/
theorem sqrt_fold_min {ι : Type} (s : Finset ι) (init : EReal) (f : ι → EReal) :
    Ideal.sqrt (s.fold min init f) = s.fold min (Ideal.sqrt init) (fun i => Ideal.sqrt (f i)) :=
  (Finset.fold_hom (op := min) (op' := min) (m := Ideal.sqrt) (s := s) (b := init) (f := f)
    (fun _ _ => sqrt_mono.map_min)).symm

/-- The f32 word 0x7F800000 denotes ⊤, -/
theorem ofBits_inf : Ideal.ofBits .f32 0x7F800000#32 = (⊤ : EReal) := by
  simp [Ideal.ofBits, Ideal.ieee]

/-- and the root of ⊤ is ⊤: a minimum of roots may start from the same word. -/
theorem sqrt_ofBits_inf : Ideal.sqrt (Ideal.ofBits .f32 0x7F800000#32) = Ideal.ofBits .f32 0x7F800000#32 := by
  rw [ofBits_inf]; rfl

/-! ## The sign of a difference inside a square -/

theorem sub_mul_self_comm (a b : EReal) : (a - b) * (a - b) = (b - a) * (b - a) := by
  by_cases h : (a = ⊥ ∧ b = ⊥) ∨ (a = ⊤ ∧ b = ⊤)
  · rcases h with ⟨rfl, rfl⟩ | ⟨rfl, rfl⟩ <;> rfl
  · have h1 : a ≠ ⊥ ∨ b ≠ ⊥ := by
      by_contra hc
      rw [not_or, not_not, not_not] at hc
      exact h (Or.inl hc)
    have h2 : a ≠ ⊤ ∨ b ≠ ⊤ := by
      by_contra hc
      rw [not_or, not_not, not_not] at hc
      exact h (Or.inr hc)
    have e : b - a = -(a - b) := by
      rw [EReal.neg_sub h1 h2, add_comm, sub_eq_add_neg]
    rw [e, neg_mul_neg]

/-! ## The reference's arrangement: coordinates summed from zero, rooted, then minimised -/

/-- The distance between point `m` of the first set and point `n` of the second, as the root of the sum over
    the two coordinates, started from the f32 zero word, of the squared differences first minus second. -/
def pairDist (t a : Pts) (b : Fin 16) (m n : Fin 2048) : EReal :=
  Ideal.sqrt (Ideal.ofBits .f32 0x00000000#32
    + ∑ d : Fin 2, (t (ix3 b m d) - a (ix3 b n d)) * (t (ix3 b m d) - a (ix3 b n d)))

/-- With the second set as the query the squared distance is this sum as it stands. -/
theorem pairDist_eq_query_second (t a : Pts) (b : Fin 16) (m n : Fin 2048) :
    pairDist t a b m n = Ideal.sqrt (sqDist a t b n m) := by
  unfold pairDist sqDist
  rw [Ideal.ofBits_zero_f32, zero_add, Fin.sum_univ_two]

/-- With the first set as the query each difference has the other sign, which the square does not see. -/
theorem pairDist_eq_query_first (t a : Pts) (b : Fin 16) (m n : Fin 2048) :
    pairDist t a b m n = Ideal.sqrt (sqDist t a b m n) := by
  unfold pairDist sqDist
  rw [Ideal.ofBits_zero_f32, zero_add, Fin.sum_univ_two,
    sub_mul_self_comm (t (ix3 b m (0 : Fin 2))), sub_mul_self_comm (t (ix3 b m (1 : Fin 2)))]

/-- The least pair distance over the second set's points is the nearest-key distance with the first set as query. -/
theorem fold_pairDist_second (t a : Pts) (b : Fin 16) (m : Fin 2048) :
    (Finset.univ : Finset (Fin 2048)).fold min (Ideal.ofBits .f32 0x7F800000#32) (fun n => pairDist t a b m n)
      = nearestAt t a b m := by
  unfold nearestAt
  rw [sqrt_fold_min, sqrt_ofBits_inf]
  exact congrArg (fun f => Finset.fold min (Ideal.ofBits .f32 0x7F800000#32) f (Finset.univ : Finset (Fin 2048)))
    (funext fun n => pairDist_eq_query_first t a b m n)

/-- The least pair distance over the first set's points is the nearest-key distance with the second set as query. -/
theorem fold_pairDist_first (t a : Pts) (b : Fin 16) (n : Fin 2048) :
    (Finset.univ : Finset (Fin 2048)).fold min (Ideal.ofBits .f32 0x7F800000#32) (fun m => pairDist t a b m n)
      = nearestAt a t b n := by
  unfold nearestAt
  rw [sqrt_fold_min, sqrt_ofBits_inf]
  exact congrArg (fun f => Finset.fold min (Ideal.ofBits .f32 0x7F800000#32) f (Finset.univ : Finset (Fin 2048)))
    (funext fun m => pairDist_eq_query_second t a b m n)

/-! ## The two layouts of the per-point numbers have the same sum -/

theorem sum_flat_eq_sum_rows (w : Flat) (v : Rows)
    (h : ∀ (b : Fin 16) (i : Fin 2048), w (ix2 b i) = v (ix3 b (0 : Fin 1) i)) :
    ∑ j, w j = ∑ j, v j := by
  refine Fintype.sum_bijective
    (fun j : (⟨2, ![16, 2048]⟩ : Shape).Idx =>
      (ix3 (⟨(j 0).val, (j 0).isLt⟩ : Fin 16) (0 : Fin 1) (⟨(j 1).val, (j 1).isLt⟩ : Fin 2048) :
        (⟨3, ![16, 1, 2048]⟩ : Shape).Idx)) ⟨?_, ?_⟩ w v (fun j => ?_)
  · intro j j' e
    have e0 : (j 0).val = (j' 0).val := congrArg (fun z : (⟨3, ![16, 1, 2048]⟩ : Shape).Idx => (z 0).val) e
    have e1 : (j 1).val = (j' 1).val := congrArg (fun z : (⟨3, ![16, 1, 2048]⟩ : Shape).Idx => (z 2).val) e
    funext ax
    match ax with
    | ⟨0, _⟩ => exact Fin.ext e0
    | ⟨1, _⟩ => exact Fin.ext e1
  · intro i
    refine ⟨ix2 (⟨(i 0).val, (i 0).isLt⟩ : Fin 16) (⟨(i 2).val, (i 2).isLt⟩ : Fin 2048), ?_⟩
    funext ax; apply Fin.ext
    match ax with
    | ⟨0, _⟩ => rfl
    | ⟨1, _⟩ =>
      have h1 : (i 1).val < 1 := (i 1).isLt
      show 0 = (i 1).val
      omega
    | ⟨2, _⟩ => rfl
  · exact (congrArg w (eq_ix2 j)).trans (h _ _)

/-- The mean of a [16, 2048] array, written as the reference writes it, is the mean of the [16, 1, 2048] array
    with the same entries. -/
theorem mean_flat_eq (w : Flat) (v : Rows)
    (h : ∀ (b : Fin 16) (i : Fin 2048), w (ix2 b i) = v (ix3 b (0 : Fin 1) i)) :
    Ideal.div (Ideal.ofBits .f32 0x00000000#32 + ∑ j, w j) (Ideal.ofBits .f32 0x47000000#32) = meanOf v := by
  unfold meanOf
  rw [sum_flat_eq_sum_rows w v h]

end Cert.Chamfer

end
-- ==== Proof.Tile.lean ====
/-
  One tile of the kernel's work, as a function of the two blocks the body reads. The body gets a tile of 512 query
  points and the whole key set of one batch entry, each as a [1, ·, 2] block, and leaves for query point j of the
  tile the root of the least squared distance to a key point. When the tile is rows i₀·512 … i₀·512+511 of batch
  entry b of a query array q, and the key block is batch entry b of a key array k, that is the nearest-key
  distance of query point i₀·512 + j of entry b.
-/
import proofs.«100557_j75290776699474_2_alg».proof.Proof.Spec

noncomputable section

namespace Cert.Chamfer

open Idealize.ShloMosaic Idealize.ShloMosaic.ValueIdx

/-- The root of the least squared distance from point j of a tile of 512 query points to the 2048 key points. -/
def tileMin (x0 : (⟨3, ![1, 512, 2]⟩ : Shape).Idx → EReal) (x1 : (⟨3, ![1, 2048, 2]⟩ : Shape).Idx → EReal) (j : Fin 512) : EReal :=
  Ideal.sqrt ((Finset.univ : Finset (Fin 2048)).fold min (Ideal.ofBits .f32 0x7F800000#32) (fun n =>
    (x1 (ix3 (0 : Fin 1) n (0 : Fin 2)) - x0 (ix3 (0 : Fin 1) j (0 : Fin 2))) * (x1 (ix3 (0 : Fin 1) n (0 : Fin 2)) - x0 (ix3 (0 : Fin 1) j (0 : Fin 2)))
      + (x1 (ix3 (0 : Fin 1) n (1 : Fin 2)) - x0 (ix3 (0 : Fin 1) j (1 : Fin 2))) * (x1 (ix3 (0 : Fin 1) n (1 : Fin 2)) - x0 (ix3 (0 : Fin 1) j (1 : Fin 2)))))

/-- A tile read out of the arrays gives the arrays' nearest-key distance at the tile's place. -/
theorem tileMin_eq_nearestAt (q k : Pts) (x0 : (⟨3, ![1, 512, 2]⟩ : Shape).Idx → EReal)
    (x1 : (⟨3, ![1, 2048, 2]⟩ : Shape).Idx → EReal) (b : Fin 16) (i0 : Nat) (hi : i0 ≤ 3)
    (h0 : ∀ (j : Fin 512) (d : Fin 2), x0 (ix3 (0 : Fin 1) j d) = q (ix3 b (⟨i0 * 512 + j.val, by omega⟩ : Fin 2048) d))
    (h1 : ∀ (n : Fin 2048) (d : Fin 2), x1 (ix3 (0 : Fin 1) n d) = k (ix3 b n d)) (j : Fin 512) :
    tileMin x0 x1 j = nearestAt q k b (⟨i0 * 512 + j.val, by omega⟩ : Fin 2048) := by
  unfold tileMin nearestAt
  refine congrArg Ideal.sqrt (congrArg (fun f => Finset.fold min (Ideal.ofBits .f32 0x7F800000#32) f (Finset.univ : Finset (Fin 2048))) (funext fun n => ?_))
  unfold sqDist
  rw [h1 n 0, h1 n 1, h0 j 0, h0 j 1]

/-- The same at an index of the [16, 1, 2048] array whose coordinates are the tile's place. -/
theorem tileMin_eq_nearest (q k : Pts) (x0 : (⟨3, ![1, 512, 2]⟩ : Shape).Idx → EReal)
    (x1 : (⟨3, ![1, 2048, 2]⟩ : Shape).Idx → EReal) (b : Fin 16) (i0 : Nat) (hi : i0 ≤ 3)
    (h0 : ∀ (j : Fin 512) (d : Fin 2), x0 (ix3 (0 : Fin 1) j d) = q (ix3 b (⟨i0 * 512 + j.val, by omega⟩ : Fin 2048) d))
    (h1 : ∀ (n : Fin 2048) (d : Fin 2), x1 (ix3 (0 : Fin 1) n d) = k (ix3 b n d)) (j : Fin 512)
    (z : (⟨3, ![16, 1, 2048]⟩ : Shape).Idx) (hz0 : (z 0).val = b.val) (hz2 : (z 2).val = i0 * 512 + j.val) :
    tileMin x0 x1 j = nearest q k z := by
  rw [tileMin_eq_nearestAt q k x0 x1 b i0 hi h0 h1 j]
  unfold nearest
  have hb : (⟨(z 0).val, (z 0).isLt⟩ : Fin 16) = b := Fin.ext hz0
  have hj : (⟨(z 2).val, (z 2).isLt⟩ : Fin 2048) = ⟨i0 * 512 + j.val, by omega⟩ := Fin.ext hz2
  rw [hb, hj]

end Cert.Chamfer

end
-- ==== Proof.Region0.lean ====
/-
  The first kernel region's output array after its run. The region walks a grid of 16 × 4 points; point (b, i)
  reads rows i·512 … i·512+511 of batch entry b of the first argument (the query tile) and the whole of batch entry b
  of the second argument (the key set), and writes back the 512 entries (b, 0, i·512 + j) of the output array:
  for each query point of the tile the root of its least squared distance to a key point. The 64 blocks tile the
  [16, 1, 2048] array, so after the run the array holds, at every index, the nearest-key distance of that query point.
-/
import proofs.«100557_j75290776699474_2_alg».proof.Proof.Gen.KernelIdeal.Frame
import proofs.«100557_j75290776699474_2_alg».proof.Proof.Payload
import proofs.«100557_j75290776699474_2_alg».proof.Proof.Tile
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

theorem zero3 : (![0, 0, 0] : Fin 3 → Nat) = fun _ => 0 := funext fun a => by fin_cases a <;> rfl

/-! ## The body's block from the two blocks it reads -/

/-- The whole query tile is loaded: entry (0, j, d) of the load is entry (0, j, d) of the block. -/
theorem load_query (j : Fin 512) (d : Fin 2) :
    r0_0.idx (ix3 (0 : Fin 1) j d) = (ix3 (0 : Fin 1) j d : S1x512x2.Idx) :=
  funext fun a => Fin.ext (by
    match a with
    | ⟨0, _⟩ => show 0 + 1 * 0 = 0; rfl
    | ⟨1, _⟩ => show 0 + 1 * j.val = j.val; omega
    | ⟨2, _⟩ => show 0 + 1 * d.val = d.val; omega)

/-- The key set's first coordinate is loaded as a column: entry (0, n, 0) of the load is entry (0, n, 0) of the block. -/
theorem load_key_x (n : Fin 2048) :
    r0_1.idx (ix3 (0 : Fin 1) n (0 : Fin 1)) = (ix3 (0 : Fin 1) n (0 : Fin 2) : S1x2048x2.Idx) :=
  funext fun a => Fin.ext (by
    match a with
    | ⟨0, _⟩ => show 0 + 1 * 0 = 0; rfl
    | ⟨1, _⟩ => show 0 + 1 * n.val = n.val; omega
    | ⟨2, _⟩ => show 0 + 1 * 0 = 0; rfl)

/-- The second coordinate's column starts one lane further: entry (0, n, 0) of the load is entry (0, n, 1) of the block. -/
theorem load_key_y (n : Fin 2048) :
    r0_2.idx (ix3 (0 : Fin 1) n (0 : Fin 1)) = (ix3 (0 : Fin 1) n (1 : Fin 2) : S1x2048x2.Idx) :=
  funext fun a => Fin.ext (by
    match a with
    | ⟨0, _⟩ => show 0 + 1 * 0 = 0; rfl
    | ⟨1, _⟩ => show 0 + 1 * n.val = n.val; omega
    | ⟨2, _⟩ => show 1 + 1 * 0 = 1; rfl)

/-- What the body leaves in its output block, entry (0, 0, j): the root of the least squared distance from query
    point j of the tile to the key points. -/
theorem body_block_apply (x0 : Vec Ideal S1x512x2 .f32) (x1 : Vec Ideal S1x2048x2 .f32) (j : Fin 512) :
    out0_2 (F := Ideal) x0 x1 (ix3 (0 : Fin 1) (0 : Fin 1) j) = Cert.Chamfer.tileMin x0 x1 j := by
  unfold out0_2
  rw [View.canon_unit_zero zero3]
  rw [Cert.KernelIdeal.Payload.pay_apply]
  unfold Cert.Chamfer.tileMin
  simp only [View.ld, load_query, load_key_x, load_key_y]

/-- The same at any index of the block: its first two coordinates are zero. -/
theorem body_block_apply' (x0 : Vec Ideal S1x512x2 .f32) (x1 : Vec Ideal S1x2048x2 .f32) (y : S1x1x512.Idx) :
    out0_2 (F := Ideal) x0 x1 y = Cert.Chamfer.tileMin x0 x1 (⟨(y 2).val, (y 2).isLt⟩ : Fin 512) := by
  have hy : y = ix3 (0 : Fin 1) (0 : Fin 1) (⟨(y 2).val, (y 2).isLt⟩ : Fin 512) := by
    funext a; apply Fin.ext
    match a with
    | ⟨0, _⟩ =>
      have h : (y 0).val < 1 := (y 0).isLt
      show (y 0).val = 0
      omega
    | ⟨1, _⟩ =>
      have h : (y 1).val < 1 := (y 1).isLt
      show (y 1).val = 0
      omega
    | ⟨2, _⟩ => rfl
  exact (congrArg (out0_2 (F := Ideal) x0 x1) hy).trans (body_block_apply x0 x1 _)

/-! ## The grid -/

/-- The printed index maps, decided over the 64 points: the query tile follows the output block's batch entry and
    tile number, the key block its batch entry, and the output block sits at (b, 0, i) with b < 16, i < 4. -/
theorem idx_facts : ∀ t : Fin cfg0.N,
    win0_0.index t (0 : Fin 3) = win0_2.index t (0 : Fin 3) ∧ win0_0.index t (1 : Fin 3) = win0_2.index t (2 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (0 : Fin 3) ≤ 15 ∧ win0_2.index t (2 : Fin 3) ≤ 3 :=
  (by decide +kernel : ∀ t : Fin grid0.N, _)

/-- Every block (b, 0, i) of the output array is some point's. -/
theorem idx_onto : ∀ (q0 : Fin 16) (q2 : Fin 4), ∃ t : Fin cfg0.N, win0_2.index t = ![q0.val, 0, q2.val] :=
  (by decide +kernel : ∀ (q0 : Fin 16) (q2 : Fin 4), ∃ t : Fin grid0.N, win0_2.index t = ![q0.val, 0, q2.val])

section
variable (V : (c : Dev nD) → (b : Ref sig .tc) → Buf (Elt Ideal) ((c : Thread nD τ).loc b))

/-! ## What a point writes back -/

/-- Point t writes back block t of the nearest-key distances of the arrays as the region finds them. -/
theorem flushed_eq (c : Dev nD) (t : Fin cfg0.N) :
    (dat0 V c).flushed 2 t
      = ((cfg0.win 2).blk t).view.read (Elt Ideal) (Cert.Chamfer.nearest (V c main_arg0) (V c main_arg1)) := by
  show (cfg0.win 2).cut (grid0.coords t) ((dat0 V c).after 2 t) = _
  rw [after0_2]
  obtain ⟨e0, e1, e2, e3, e4, e5, e6, e7, e8⟩ := idx_facts t
  funext y
  show out0_2 (iblk0 V c 0 t) (iblk0 V c 1 t) y
    = Cert.Chamfer.nearest (V c main_arg0) (V c main_arg1) (((cfg0.win 2).blk t).view.emb y)
  rw [body_block_apply']
  refine Cert.Chamfer.tileMin_eq_nearest (V c main_arg0) (V c main_arg1) _ _
    (⟨win0_2.index t (0 : Fin 3), by omega⟩ : Fin 16) (win0_2.index t (2 : Fin 3)) e8 ?_ ?_ _ _ ?_ ?_
  · intro j d
    show V c main_arg0 (((cfg0.win 0).blk t).view.emb (ix3 (0 : Fin 1) j d)) = _
    refine congrArg (V c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * j.val = win0_2.index t (2 : Fin 3) * 512 + j.val; omega
    | ⟨2, _⟩ => show win0_0.index t (2 : Fin 3) * 2 + 1 * d.val = d.val; omega
  · intro n d
    show V c main_arg1 (((cfg0.win 1).blk t).view.emb (ix3 (0 : Fin 1) n d)) = _
    refine congrArg (V c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 2048 + 1 * n.val = n.val; omega
    | ⟨2, _⟩ => show win0_1.index t (2 : Fin 3) * 2 + 1 * d.val = d.val; omega
  · have h0 : (y 0).val < 1 := (y 0).isLt
    show win0_2.index t (0 : Fin 3) * 1 + 1 * (y 0).val = win0_2.index t (0 : Fin 3)
    omega
  · show win0_2.index t (2 : Fin 3) * 512 + 1 * (y 2).val = win0_2.index t (2 : Fin 3) * 512 + (y 2).val
    omega

/-! ## The blocks cover the array -/

/-- An index of the array is in point t's block iff each coordinate is in the block's range on its axis. -/
theorem mem_blk (t : Fin cfg0.N) (i : S16x1x2048.Idx) :
    i ∈ ((cfg0.win 2).blk t).view.set ↔ ∀ a : Fin 3, win0_2.index t a * S1x1x512.size a ≤ (i a).val
      ∧ (i a).val < win0_2.index t a * S1x1x512.size a + S1x1x512.size a := by
  show i ∈ ((View.whole main_v0).slice (win0_2.rect t)).set ↔ _
  rw [View.set_slice_whole, Rect.mem_set_unit]
  exact Iff.rfl

/-- Every index (b, 0, r) lies in the block of the point (b, r / 512). -/
theorem cover (i : S16x1x2048.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 2048 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 512 ≤ (i 2).val ∧ (i 2).val < win0_2.index t (2 : Fin 3) * 512 + 512; omega

/-! ## The array after the region -/

/-- After the region its output array holds the nearest-key distance of every query point. -/
theorem out_array (c : Dev nD) :
    (dat0 V c).arrAt 2 cfg0.N = Cert.Chamfer.nearest (V c main_arg0) (V c main_arg1) :=
  (dat0 V c).arrAt_eq_of_cover 2 _ (fun t _ => flushed_eq V c t) cover

end

end Cert.KernelIdeal.Region0

end
-- ==== Proof.Region1.lean ====
/-
  The second kernel region's output array after its run. The region walks a grid of 16 × 4 points; point (b, i)
  reads rows i·512 … i·512+511 of batch entry b of the second argument (the query tile) and the whole of batch entry b
  of the first argument (the key set), and writes back the 512 entries (b, 0, i·512 + j) of the output array:
  for each query point of the tile the root of its least squared distance to a key point. The 64 blocks tile the
  [16, 1, 2048] array, so after the run the array holds, at every index, the nearest-key distance of that query point.
-/
import proofs.«100557_j75290776699474_2_alg».proof.Proof.Gen.KernelIdeal.Frame
import proofs.«100557_j75290776699474_2_alg».proof.Proof.Payload
import proofs.«100557_j75290776699474_2_alg».proof.Proof.Tile
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

theorem zero3 : (![0, 0, 0] : Fin 3 → Nat) = fun _ => 0 := funext fun a => by fin_cases a <;> rfl

/-! ## The body's block from the two blocks it reads -/

/-- The whole query tile is loaded: entry (0, j, d) of the load is entry (0, j, d) of the block. -/
theorem load_query (j : Fin 512) (d : Fin 2) :
    r1_0.idx (ix3 (0 : Fin 1) j d) = (ix3 (0 : Fin 1) j d : S1x512x2.Idx) :=
  funext fun a => Fin.ext (by
    match a with
    | ⟨0, _⟩ => show 0 + 1 * 0 = 0; rfl
    | ⟨1, _⟩ => show 0 + 1 * j.val = j.val; omega
    | ⟨2, _⟩ => show 0 + 1 * d.val = d.val; omega)

/-- The key set's first coordinate is loaded as a column: entry (0, n, 0) of the load is entry (0, n, 0) of the block. -/
theorem load_key_x (n : Fin 2048) :
    r1_1.idx (ix3 (0 : Fin 1) n (0 : Fin 1)) = (ix3 (0 : Fin 1) n (0 : Fin 2) : S1x2048x2.Idx) :=
  funext fun a => Fin.ext (by
    match a with
    | ⟨0, _⟩ => show 0 + 1 * 0 = 0; rfl
    | ⟨1, _⟩ => show 0 + 1 * n.val = n.val; omega
    | ⟨2, _⟩ => show 0 + 1 * 0 = 0; rfl)

/-- The second coordinate's column starts one lane further: entry (0, n, 0) of the load is entry (0, n, 1) of the block. -/
theorem load_key_y (n : Fin 2048) :
    r1_2.idx (ix3 (0 : Fin 1) n (0 : Fin 1)) = (ix3 (0 : Fin 1) n (1 : Fin 2) : S1x2048x2.Idx) :=
  funext fun a => Fin.ext (by
    match a with
    | ⟨0, _⟩ => show 0 + 1 * 0 = 0; rfl
    | ⟨1, _⟩ => show 0 + 1 * n.val = n.val; omega
    | ⟨2, _⟩ => show 1 + 1 * 0 = 1; rfl)

/-- What the body leaves in its output block, entry (0, 0, j): the root of the least squared distance from query
    point j of the tile to the key points. -/
theorem body_block_apply (x0 : Vec Ideal S1x512x2 .f32) (x1 : Vec Ideal S1x2048x2 .f32) (j : Fin 512) :
    out1_2 (F := Ideal) x0 x1 (ix3 (0 : Fin 1) (0 : Fin 1) j) = Cert.Chamfer.tileMin x0 x1 j := by
  unfold out1_2
  rw [View.canon_unit_zero zero3]
  rw [Cert.KernelIdeal.Payload.pay1_eq, Cert.KernelIdeal.Payload.pay_apply]
  unfold Cert.Chamfer.tileMin
  simp only [View.ld, load_query, load_key_x, load_key_y]

/-- The same at any index of the block: its first two coordinates are zero. -/
theorem body_block_apply' (x0 : Vec Ideal S1x512x2 .f32) (x1 : Vec Ideal S1x2048x2 .f32) (y : S1x1x512.Idx) :
    out1_2 (F := Ideal) x0 x1 y = Cert.Chamfer.tileMin x0 x1 (⟨(y 2).val, (y 2).isLt⟩ : Fin 512) := by
  have hy : y = ix3 (0 : Fin 1) (0 : Fin 1) (⟨(y 2).val, (y 2).isLt⟩ : Fin 512) := by
    funext a; apply Fin.ext
    match a with
    | ⟨0, _⟩ =>
      have h : (y 0).val < 1 := (y 0).isLt
      show (y 0).val = 0
      omega
    | ⟨1, _⟩ =>
      have h : (y 1).val < 1 := (y 1).isLt
      show (y 1).val = 0
      omega
    | ⟨2, _⟩ => rfl
  exact (congrArg (out1_2 (F := Ideal) x0 x1) hy).trans (body_block_apply x0 x1 _)

/-! ## The grid -/

/-- The printed index maps, decided over the 64 points: the query tile follows the output block's batch entry and
    tile number, the key block its batch entry, and the output block sits at (b, 0, i) with b < 16, i < 4. -/
theorem idx_facts : ∀ t : Fin cfg1.N,
    win1_0.index t (0 : Fin 3) = win1_2.index t (0 : Fin 3) ∧ win1_0.index t (1 : Fin 3) = win1_2.index t (2 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_2.index t (1 : Fin 3) = 0 ∧ win1_2.index t (0 : Fin 3) ≤ 15 ∧ win1_2.index t (2 : Fin 3) ≤ 3 :=
  (by decide +kernel : ∀ t : Fin grid1.N, _)

/-- Every block (b, 0, i) of the output array is some point's. -/
theorem idx_onto : ∀ (q0 : Fin 16) (q2 : Fin 4), ∃ t : Fin cfg1.N, win1_2.index t = ![q0.val, 0, q2.val] :=
  (by decide +kernel : ∀ (q0 : Fin 16) (q2 : Fin 4), ∃ t : Fin grid1.N, win1_2.index t = ![q0.val, 0, q2.val])

section
variable (V : (c : Dev nD) → (b : Ref sig .tc) → Buf (Elt Ideal) ((c : Thread nD τ).loc b))

/-! ## What a point writes back -/

/-- Point t writes back block t of the nearest-key distances of the arrays as the region finds them. -/
theorem flushed_eq (c : Dev nD) (t : Fin cfg1.N) :
    (dat1 V c).flushed 2 t
      = ((cfg1.win 2).blk t).view.read (Elt Ideal) (Cert.Chamfer.nearest (V c main_arg1) (V c main_arg0)) := by
  show (cfg1.win 2).cut (grid1.coords t) ((dat1 V c).after 2 t) = _
  rw [after1_2]
  obtain ⟨e0, e1, e2, e3, e4, e5, e6, e7, e8⟩ := idx_facts t
  funext y
  show out1_2 (iblk1 V c 0 t) (iblk1 V c 1 t) y
    = Cert.Chamfer.nearest (V c main_arg1) (V c main_arg0) (((cfg1.win 2).blk t).view.emb y)
  rw [body_block_apply']
  refine Cert.Chamfer.tileMin_eq_nearest (V c main_arg1) (V c main_arg0) _ _
    (⟨win1_2.index t (0 : Fin 3), by omega⟩ : Fin 16) (win1_2.index t (2 : Fin 3)) e8 ?_ ?_ _ _ ?_ ?_
  · intro j d
    show V c main_arg1 (((cfg1.win 0).blk t).view.emb (ix3 (0 : Fin 1) j d)) = _
    refine congrArg (V c main_arg1) (funext fun a => Fin.ext ?_)
    match a with
    | ⟨0, _⟩ => show win1_0.index t (0 : Fin 3) * 1 + 1 * 0 = win1_2.index t (0 : Fin 3); omega
    | ⟨1, _⟩ => show win1_0.index t (1 : Fin 3) * 512 + 1 * j.val = win1_2.index t (2 : Fin 3) * 512 + j.val; omega
    | ⟨2, _⟩ => show win1_0.index t (2 : Fin 3) * 2 + 1 * d.val = d.val; omega
  · intro n d
    show V c main_arg0 (((cfg1.win 1).blk t).view.emb (ix3 (0 : Fin 1) n d)) = _
    refine congrArg (V c main_arg0) (funext fun a => Fin.ext ?_)
    match a with
    | ⟨0, _⟩ => show win1_1.index t (0 : Fin 3) * 1 + 1 * 0 = win1_2.index t (0 : Fin 3); omega
    | ⟨1, _⟩ => show win1_1.index t (1 : Fin 3) * 2048 + 1 * n.val = n.val; omega
    | ⟨2, _⟩ => show win1_1.index t (2 : Fin 3) * 2 + 1 * d.val = d.val; omega
  · have h0 : (y 0).val < 1 := (y 0).isLt
    show win1_2.index t (0 : Fin 3) * 1 + 1 * (y 0).val = win1_2.index t (0 : Fin 3)
    omega
  · show win1_2.index t (2 : Fin 3) * 512 + 1 * (y 2).val = win1_2.index t (2 : Fin 3) * 512 + (y 2).val
    omega

/-! ## The blocks cover the array -/

/-- An index of the array is in point t's block iff each coordinate is in the block's range on its axis. -/
theorem mem_blk (t : Fin cfg1.N) (i : S16x1x2048.Idx) :
    i ∈ ((cfg1.win 2).blk t).view.set ↔ ∀ a : Fin 3, win1_2.index t a * S1x1x512.size a ≤ (i a).val
      ∧ (i a).val < win1_2.index t a * S1x1x512.size a + S1x1x512.size a := by
  show i ∈ ((View.whole main_v1).slice (win1_2.rect t)).set ↔ _
  rw [View.set_slice_whole, Rect.mem_set_unit]
  exact Iff.rfl

/-- Every index (b, 0, r) lies in the block of the point (b, r / 512). -/
theorem cover (i : S16x1x2048.Idx) :
    ∃ t : Fin cfg1.N, (cfg1.win 2).flush t = true ∧ i ∈ ((cfg1.win 2).blk t).view.set := by
  have hi0 : (i 0).val < 16 := (i 0).isLt
  have hi1 : (i 1).val < 1 := (i 1).isLt
  have hi2 : (i 2).val < 2048 := (i 2).isLt
  obtain ⟨t, ht⟩ := idx_onto ⟨(i 0).val, hi0⟩ ⟨(i 2).val / 512, by omega⟩
  have q0 : win1_2.index t (0 : Fin 3) = (i 0).val := congrFun ht 0
  have q1 : win1_2.index t (1 : Fin 3) = 0 := congrFun ht 1
  have q2 : win1_2.index t (2 : Fin 3) = (i 2).val / 512 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 512 ≤ (i 2).val ∧ (i 2).val < win1_2.index t (2 : Fin 3) * 512 + 512; omega

/-! ## The array after the region -/

/-- After the region its output array holds the nearest-key distance of every query point. -/
theorem out_array (c : Dev nD) :
    (dat1 V c).arrAt 2 cfg1.N = Cert.Chamfer.nearest (V c main_arg1) (V c main_arg0) :=
  (dat1 V c).arrAt_eq_of_cover 2 _ (fun t _ => flushed_eq V c t) cover

end

end Cert.KernelIdeal.Region1

end
-- ==== Proof.KernelValue.lean ====
/-
  The kernel program's result as a function of its arguments, on the extended reals. After the two regions the
  first output array holds the nearest-key distances with the first argument as the query set and the second as
  the key set, the second output array those with the roles exchanged (each region's blocks tile its array, and the
  second region still finds the arguments as launched). The host operations take the mean of each array — its sum
  from the f32 zero word divided by the f32 word of 32768 — and add the two means: the loss of the two arguments.
-/
import proofs.«100557_j75290776699474_2_alg».proof.Proof.KernelRun
import proofs.«100557_j75290776699474_2_alg».proof.Proof.Region0
import proofs.«100557_j75290776699474_2_alg».proof.Proof.Region1
import proofs.«100557_j75290776699474_2_alg».proof.Proof.Spec
import Idealize.ShloMosaic.PureOps.Ideal.Laws

set_option maxRecDepth 16384

noncomputable section

namespace Cert.KernelIdeal.KernelValue

open Idealize.ShloMosaic Idealize.ShloMosaic.TcCoe Idealize.SL.Sem
open Cert.KernelIdeal Cert.KernelIdeal.Gen

/-- The host's mean of a [16, 1, 2048] array: the sum over every index from the zero word, divided by 32768. -/
theorem host_mean (v : Cert.Chamfer.Rows) (i : S_.Idx) :
    Host.divf (Host.reduceAdd (F := Ideal) v (constant (F := Ideal) S_ .f32 0x00000000#32) reducesTo_S16x1x2048_S_d0_1_2 h_S_)
        (constant (F := Ideal) S_ .f32 0x47000000#32) i
      = Cert.Chamfer.meanOf v := by
  unfold Cert.Chamfer.meanOf
  show Ideal.div (Host.reduceAdd (F := Ideal) v (constant (F := Ideal) S_ .f32 0x00000000#32) reducesTo_S16x1x2048_S_d0_1_2 h_S_ i)
      (Ideal.ofBits .f32 0x47000000#32) = _
  refine congrArg (fun z => Ideal.div z (Ideal.ofBits .f32 0x47000000#32)) ?_
  simp only [Host.reduceAdd, Ideal.hostReduceAdd_def]
  exact Ideal.hostReduceAdd_total reducesTo_S16x1x2048_S_d0_1_2 (fun b => b.elim0) v _ i

variable (m : (ℓ : Loc nD τ sig) → Buf (Elt Ideal) ℓ) (ρ : Dev nD → PrngReg)

/-- The first output array after both regions: the nearest-key distances, first argument the query. -/
theorem first_out (c : Dev nD) :
    W2 m ρ c (Proc.devRef .tc main_v0)
      = Cert.Chamfer.nearest (m ((c : Thread nD τ).loc main_arg0)) (m ((c : Thread nD τ).loc main_arg1)) :=
  (Cert.KernelIdeal.RunValue.after_regions_first_out m ρ c).trans (Cert.KernelIdeal.Region0.out_array (V0 m ρ) c)

/-- The second output array after both regions: the nearest-key distances, second argument the query. -/
theorem second_out (c : Dev nD) :
    W2 m ρ c (Proc.devRef .tc main_v1)
      = Cert.Chamfer.nearest (m ((c : Thread nD τ).loc main_arg1)) (m ((c : Thread nD τ).loc main_arg0)) := by
  refine (Cert.KernelIdeal.RunValue.after_regions_second_out m ρ c).trans
    ((Cert.KernelIdeal.Region1.out_array (V1 m ρ) c).trans ?_)
  rw [Cert.KernelIdeal.RunValue.second_region_arg0 m ρ c, Cert.KernelIdeal.RunValue.second_region_arg1 m ρ c]

/-- The result buffer after the whole program: the loss of the two arguments, at its one index. -/
theorem result_value (c : Dev nD) :
    W3 m ρ c (Proc.devRef .tc main_v6)
      = fun _ => Cert.Chamfer.loss (m ((c : Thread nD τ).loc main_arg0)) (m ((c : Thread nD τ).loc main_arg1)) := by
  rw [Cert.KernelIdeal.RunValue.result_after_host m ρ c, first_out m ρ c, second_out m ρ c]
  funext i
  unfold Cert.Chamfer.loss
  exact congrArg₂ (fun a b : EReal => a + b) (host_mean _ i) (host_mean _ i)

end Cert.KernelIdeal.KernelValue

end
-- ==== Proof.LibMinReduceMid.lean ====
/-
  The minimum over the MIDDLE axis of an A×B×C array of extended reals, read at an index. Reducing axis 1 with
  the minimum leaves one value per pair (p, q) of the outer and the inner coordinate: the fold of min, from the
  starting value, over the entries (p, k, q), k running over the middle axis. Nothing here mentions a program.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduceMid

open Idealize.ShloMosaic Idealize.ShloMosaic.ValueIdx

/-- The index (p, q) with the coordinate k inserted on the middle axis is (p, k, q): the coordinate before the
    inserted axis keeps its place, the one after it moves up by one. -/
theorem lift_axis1 {A B C : Nat} (h : Shape.Reduces ⟨3, ![A, B, C]⟩ [(1 : Fin 3)] ⟨2, ![A, C]⟩) (p : Fin A) (q : Fin C)
    (k : Fin B) : h.lift (ix2 p q) k = ix3 p k q := by
  funext ax; apply Fin.ext
  match ax with
  | ⟨0, _⟩ => rfl
  | ⟨1, _⟩ => rfl
  | ⟨2, _⟩ => rfl

/-- The host's reduce with a minimum body over the middle axis of an A×B×C array, at (p, q): the fold of min
    over the entries (p, k, q) from the initial value. -/
theorem hostReduce_min_axis1_apply {A B C : Nat} {u : Shape} (x : FVec Ideal ⟨3, ![A, B, C]⟩ .f32)
    (init : u.Idx → Ideal .f32) (h' : Shape.ReducesTo ⟨3, ![A, B, C]⟩ [(1 : Fin 3)] ⟨2, ![A, C]⟩) (hu : 0 < u.numel)
    (p : Fin A) (q : Fin C) :
    Host.reduce FloatOps.minimumf x init h' hu (ix2 p q)
      = (Finset.univ : Finset (Fin B)).fold min (init (Shape.Idx.first hu)) (fun k => x (ix3 p k q)) := by
  have h : Shape.Reduces ⟨3, ![A, B, C]⟩ [(1 : Fin 3)] ⟨2, ![A, C]⟩ := ⟨h'.1, Nat.two_pos, h'.2⟩
  rw [Host.reduce_eq_fold_single FloatOps.minimumf x init h' h hu]
  have hf : (x ∘ h.lift (ix2 p q)) = fun k : Fin B => x (ix3 p k q) :=
    funext fun k => congrArg x (lift_axis1 h p q k)
  exact congrArg (fun f => Finset.fold min (init (Shape.Idx.first hu)) f (Finset.univ : Finset (Fin B))) hf

end Cert.LibMinReduceMid

end
-- ==== Proof.RefValue.lean ====
/-
  The value of the reference program in the vocabulary of the two-sided nearest-neighbour distance.

  The program forms, for every set b and every pair (m, n) of a point of the first set and a point of the
  second, the differences of the two coordinates, squares them, sums the two squares from zero and takes the
  root: the pair distance. A minimum over n leaves, for each point m of the first set, the distance to its
  nearest point of the second; a minimum over m leaves the same for each point n of the second set. Each of the
  two arrays is summed from zero and divided by 32768, and the two means are added. So the result is the loss.
-/
import proofs.«100557_j75290776699474_2_alg».proof.Proof.Gen.ReferenceIdeal.Read
import proofs.«100557_j75290776699474_2_alg».proof.Proof.Spec
import proofs.«100557_j75290776699474_2_alg».proof.Proof.LibMinReduce
import proofs.«100557_j75290776699474_2_alg».proof.Proof.LibMinReduceMid

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## One pair of points -/

/-- Under the entry (b, m, n, d) of the array of differences the first operand is read at (b, m, d): the two
    broadcasts insert the axis of n and then stretch it, neither moves b, m or d. -/
theorem idx_first (b : Fin 16) (m n : Fin 2048) (d : Fin 2) :
    idx_main_v0 (idx_main_v2 (idx_main_v6 (ix3 b m n) d)) = ix3 b m d := by
  funext a; apply Fin.ext
  match a with
  | ⟨0, _⟩ => rfl
  | ⟨1, _⟩ => rfl
  | ⟨2, _⟩ => rfl

/-- Under the same entry the second operand is read at (b, n, d): its broadcasts insert and stretch the axis of m. -/
theorem idx_second (b : Fin 16) (m n : Fin 2048) (d : Fin 2) :
    idx_main_v1 (idx_main_v3 (idx_main_v6 (ix3 b m n) d)) = ix3 b n d := by
  funext a; apply Fin.ext
  match a with
  | ⟨0, _⟩ => rfl
  | ⟨1, _⟩ => rfl
  | ⟨2, _⟩ => rfl

/-- The squared difference of coordinate d between point m of the first set and point n of the second. -/
theorem sq_at (x0 x1 : (⟨S16x2048x2, .f32⟩ : BufTy).Contents (Elt Ideal)) (b : Fin 16) (m n : Fin 2048) (d : Fin 2) :
    val_main_v5 (F := Ideal) x0 x1 (idx_main_v6 (ix3 b m n) d)
      = (x0 (ix3 b m d) - x1 (ix3 b n d)) * (x0 (ix3 b m d) - x1 (ix3 b n d)) := by
  rw [val_main_v5_apply, val_main_v4_apply, val_main_v2_apply, val_main_v3_apply, val_main_v0_apply, val_main_v1_apply,
    idx_first, idx_second]
  rfl

/-- The rooted sum of the two squared differences is the pair distance. -/
theorem dist_at (x0 x1 : (⟨S16x2048x2, .f32⟩ : BufTy).Contents (Elt Ideal)) (b : Fin 16) (m n : Fin 2048) :
    val_main_v7 (F := Ideal) x0 x1 (ix3 b m n) = Cert.Chamfer.pairDist x0 x1 b m n := by
  rw [val_main_v7_apply, val_main_v6_apply, val_main_cst_apply]
  unfold Cert.Chamfer.pairDist
  rw [Ideal.hostUnary_sqrt_def, Ideal.ofBits_def]
  exact congrArg (fun z => Ideal.sqrt (Ideal.ofBits .f32 0x00000000#32 + z))
    (Finset.sum_congr rfl fun d _ => sq_at x0 x1 b m n d)

/-! ## The two minima -/

/-- The minimum over the second set's points of the pair distances from point m of the first set is that
    point's nearest distance, the first set the query. -/
theorem near_first (x0 x1 : (⟨S16x2048x2, .f32⟩ : BufTy).Contents (Elt Ideal)) (b : Fin 16) (m : Fin 2048) :
    val_main_v8 (F := Ideal) x0 x1 (ix2 b m) = Cert.Chamfer.nearestAt x0 x1 b m := by
  unfold val_main_v8
  refine (Cert.LibMinReduce.hostReduce_min_axis2_apply (A := 16) (B := 2048) (C := 2048) (val_main_v7 (F := Ideal) x0 x1)
    (val_main_cst_0 (F := Ideal)) reducesTo_S16x2048x2048_S16x2048_d2 h_S_ b m).trans ?_
  rw [val_main_cst_0_apply, Ideal.ofBits_def]
  refine Eq.trans ?_ (Cert.Chamfer.fold_pairDist_second x0 x1 b m)
  exact congrArg (fun f => Finset.fold min (Ideal.ofBits .f32 0x7F800000#32) f (Finset.univ : Finset (Fin 2048)))
    (funext fun n => dist_at x0 x1 b m n)

/-- The minimum over the first set's points of the pair distances to point n of the second set is that point's
    nearest distance, the second set the query. -/
theorem near_second (x0 x1 : (⟨S16x2048x2, .f32⟩ : BufTy).Contents (Elt Ideal)) (b : Fin 16) (n : Fin 2048) :
    val_main_v11 (F := Ideal) x0 x1 (ix2 b n) = Cert.Chamfer.nearestAt x1 x0 b n := by
  unfold val_main_v11
  refine (Cert.LibMinReduceMid.hostReduce_min_axis1_apply (A := 16) (B := 2048) (C := 2048) (val_main_v7 (F := Ideal) x0 x1)
    (val_main_cst_3 (F := Ideal)) reducesTo_S16x2048x2048_S16x2048_d1 h_S_ b n).trans ?_
  rw [val_main_cst_3_apply, Ideal.ofBits_def]
  refine Eq.trans ?_ (Cert.Chamfer.fold_pairDist_first x0 x1 b n)
  exact congrArg (fun f => Finset.fold min (Ideal.ofBits .f32 0x7F800000#32) f (Finset.univ : Finset (Fin 2048)))
    (funext fun m => dist_at x0 x1 b m n)

/-! ## The two means and their sum -/

/-- The mean over the first set's points of their nearest distances. -/
theorem mean_first (x0 x1 : (⟨S16x2048x2, .f32⟩ : BufTy).Contents (Elt Ideal)) (i : S_.Idx) :
    val_main_v10 (F := Ideal) x0 x1 i = Cert.Chamfer.meanOf (Cert.Chamfer.nearest x0 x1) := by
  rw [val_main_v10_apply, val_main_v9_apply, val_main_cst_1_apply, val_main_cst_2_apply, Ideal.hostDivf_def,
    Ideal.ofBits_def, Ideal.ofBits_def]
  exact Cert.Chamfer.mean_flat_eq (val_main_v8 (F := Ideal) x0 x1) (Cert.Chamfer.nearest x0 x1)
    (fun b m => (near_first x0 x1 b m).trans (Cert.Chamfer.nearest_ix3 x0 x1 b (0 : Fin 1) m).symm)

/-- The mean over the second set's points of their nearest distances. -/
theorem mean_second (x0 x1 : (⟨S16x2048x2, .f32⟩ : BufTy).Contents (Elt Ideal)) (i : S_.Idx) :
    val_main_v13 (F := Ideal) x0 x1 i = Cert.Chamfer.meanOf (Cert.Chamfer.nearest x1 x0) := by
  rw [val_main_v13_apply, val_main_v12_apply, val_main_cst_4_apply, val_main_cst_5_apply, Ideal.hostDivf_def,
    Ideal.ofBits_def, Ideal.ofBits_def]
  exact Cert.Chamfer.mean_flat_eq (val_main_v11 (F := Ideal) x0 x1) (Cert.Chamfer.nearest x1 x0)
    (fun b n => (near_second x0 x1 b n).trans (Cert.Chamfer.nearest_ix3 x1 x0 b (0 : Fin 1) n).symm)

/-- The reference program's result, a scalar, is the loss of its two arguments. -/
theorem result_eq (x0 x1 : (⟨Cert.ReferenceIdeal.S16x2048x2, .f32⟩ : BufTy).Contents (Elt Ideal)) :
    Cert.ReferenceIdeal.Read.val_main_v14 (F := Ideal) x0 x1 = fun _ => Cert.Chamfer.loss x0 x1 := by
  funext i
  rw [val_main_v14_apply, mean_first, mean_second, Ideal.addf_def]
  rfl

end Cert.ReferenceIdeal.RefValue

end
-- ==== Proof.Claims.lean ====
/-
  The five claims. Both idealized programs compute the two-sided nearest-neighbour loss of their two arguments on
  the extended reals: the kernel program takes, per query point, the root of the least squared distance
  (key − query, coordinate by coordinate) and the reference the least of the rooted distances (first set − second
  set). The root is monotone, so it may be taken before or after the minimum, and a square does not see the sign of
  the difference under it; the means are then sums of the same 32768 numbers. Neither law needs finite entries,
  so the precondition is never opened. The kernel's idealization rewrote no operation, so there is nothing to
  preserve, and the three frames are the programs' runs with the results forgotten.
-/
import proofs.«100557_j75290776699474_2_alg».proof.Defs
import proofs.«100557_j75290776699474_2_alg».proof.Proof.Gen.Kernel.Frame
import proofs.«100557_j75290776699474_2_alg».proof.Proof.Gen.KernelIdeal.Frame
import proofs.«100557_j75290776699474_2_alg».proof.Proof.Gen.ReferenceIdeal.Run
import proofs.«100557_j75290776699474_2_alg».proof.Proof.Gen.ReferenceIdeal.Read
import proofs.«100557_j75290776699474_2_alg».proof.Proof.Gen.Pre_finite_inputs
import proofs.«100557_j75290776699474_2_alg».proof.Proof.RunPatched
import proofs.«100557_j75290776699474_2_alg».proof.Proof.KernelValue
import proofs.«100557_j75290776699474_2_alg».proof.Proof.RefValue

noncomputable section

namespace Cert.Proof.Claims

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The idealized kernel program ends with its result buffer at the loss of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v6)
            = (fun _ => Cert.Chamfer.loss (m ((c.tc : Thread Cert.KernelIdeal.nD Cert.KernelIdeal.τ).loc Cert.KernelIdeal.main_arg0))
                (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono
    (fun r h c => ⟨(h c).1.trans (Cert.KernelIdeal.KernelValue.result_value m ρ c), (h c).2⟩)
    (Cert.KernelIdeal.GenP.run_result (F := Ideal) m ρ)

/-- From memories agreeing on the arguments both idealized programs end with the same result: the loss. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]
  rfl

end Cert.Proof.Claims

end
-- ==== Proof.lean ====
/-
  The certificate's claim. The kernel program — two launches of one tiled nearest-neighbour kernel, with the roles
  of query and key exchanged, and a mean of each launch's output — and the reference — all pairwise distances, a
  minimum along each of the two point axes, a mean of each — compute the same two-sided nearest-neighbour loss on
  the extended reals. The parts: the loss and the laws that join the two arrangements (Spec), one tile of the
  kernel's work (Tile, Payload), each launch's output array (Region0, Region1), the program's run and the buffers at
  its boundaries (RunPatched, KernelRun, KernelValue), the reference's value (RefValue), and the claims (Claims).
-/
import proofs.«100557_j75290776699474_2_alg».proof.Defs
import proofs.«100557_j75290776699474_2_alg».proof.Proof.Gen.Kernel
import proofs.«100557_j75290776699474_2_alg».proof.Proof.Gen.Kernel.Skeleton
import proofs.«100557_j75290776699474_2_alg».proof.Proof.Gen.Kernel.Launch
import proofs.«100557_j75290776699474_2_alg».proof.Proof.Gen.Kernel.Points
import proofs.«100557_j75290776699474_2_alg».proof.Proof.Gen.Kernel.Frame
import proofs.«100557_j75290776699474_2_alg».proof.Proof.Gen.KernelIdeal
import proofs.«100557_j75290776699474_2_alg».proof.Proof.Gen.KernelIdeal.Skeleton
import proofs.«100557_j75290776699474_2_alg».proof.Proof.Gen.KernelIdeal.Launch
import proofs.«100557_j75290776699474_2_alg».proof.Proof.Gen.KernelIdeal.Points
import proofs.«100557_j75290776699474_2_alg».proof.Proof.Gen.KernelIdeal.Frame
import proofs.«100557_j75290776699474_2_alg».proof.Proof.Gen.ReferenceIdeal
import proofs.«100557_j75290776699474_2_alg».proof.Proof.Gen.ReferenceIdeal.Run
import proofs.«100557_j75290776699474_2_alg».proof.Proof.Gen.ReferenceIdeal.Read
import proofs.«100557_j75290776699474_2_alg».proof.Proof.Gen.Pre_finite_inputs
import proofs.«100557_j75290776699474_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
